-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  One propagation layer of a graph network over the extended reals: for an adjacency matrix `A` (10000 × 10000),
  features `x` (10000 × 128), weights `W` (128 × 128) and a bias `b` (128),

      out (p, q) = max ( ∑ k, (∑ j, A (p, j) · x (j, k)) · W (k, q)  +  b q ,  0 ).

  The double product is written here grouped as `(A · x) · W`. Grouped the other way, `A · (x · W)`, it is the same
  number whenever every entry is a real number: both are the double sum of `A (p, j) · x (j, k) · W (k, q)` over
  `j` and `k`, by distributivity and an exchange of the two finite sums (`assoc_ereal`). On the extended reals
  distributivity fails at the infinities, so the law is stated for finite entries only.
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- The inclusion of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a row times a matrix times a column, over the reals: both groupings are the double sum of
    `a j · x j k · w k`. -/
theorem assoc_real {J K : Type*} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => mul_assoc _ _ _

/-- The same on the extended reals, for entries that are all real numbers. -/
theorem assoc_ereal {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha' using ha
  choose x' hx' using hx
  choose w' hw' using hw
  simp only [ha', hx', hw', ← EReal.coe_mul, ← coe_sum]
  rw [assoc_real]

/-- The layer's output at row `p`, column `q`: the rectified sum of the bias and the double product grouped as
    `(A · x) · W`. The zero of the rectifier is kept as the float word both programs write. -/
def layerAt (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) (p : Fin 10000) (q : Fin 128) : EReal :=
  max ((∑ k : Fin 128, (∑ j : Fin 10000, A (ix2 p j) * X (ix2 j k)) * W (ix2 k q)) + b (ix1 q))
    (Ideal.ofBits .f32 0x00000000#32)

/-- The layer's whole output array. -/
def layer (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => layerAt A X W b (i 0) (i 1)

theorem layer_ix2 (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) (p : Fin 10000) (q : Fin 128) :
    layer A X W b (ix2 p q) = layerAt A X W b p q := rfl

/-- With real entries the layer is equally the rectified `A · (x · W) + b`. -/
theorem layerAt_eq_right (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal)
    (hA : ∀ i, ∃ r : ℝ, A i = r) (hX : ∀ i, ∃ r : ℝ, X i = r) (hW : ∀ i, ∃ r : ℝ, W i = r) (p : Fin 10000) (q : Fin 128) :
    layerAt A X W b p q
      = max ((∑ j : Fin 10000, A (ix2 p j) * ∑ k : Fin 128, X (ix2 j k) * W (ix2 k q)) + b (ix1 q))
          (Ideal.ofBits .f32 0x00000000#32) := by
  unfold layerAt
  rw [assoc_ereal (fun j => A (ix2 p j)) (fun j k => X (ix2 j k)) (fun k => W (ix2 k q))
    (fun j => hA _) (fun j k => hX _) (fun k => hW _)]

end Cert.GraphLayer

end
-- ==== Proof.Finite.lean ====
/-
  The precondition read back: when the printed predicate "every entry of every input is below +∞ in absolute value"
  evaluates to true, each entry of each of the four input arrays is a real number. An extended real `x` with
  `max x (-x) < ⊤` is neither `⊤` nor `⊥`; the predicate is a conjunction of four such tests, each taken over a
  whole array by an `and`-reduction, so it yields the test at every index.
-/
import proofs.«107200_g20057497272921_cont_8to1_568_23_alg».proof.Pre_finite_inputs
import proofs.«107200_g20057497272921_cont_8to1_568_23_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Cert.Pre_finite_inputs.Facts Idealize.ShloMosaic

/-- The rank-0 shape has one index. -/
instance : Subsingleton S_.Idx := ⟨fun a b => funext fun d => d.elim0⟩

/-- The float word `0x7F800000` is `+∞`. -/
theorem ofBits_inf : Ideal.ofBits .f32 0x7F800000#32 = ⊤ := by simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

/-- The test at one index of an array: the printed comparison of `|x|` with the splat of `+∞` there. -/
theorem real_of_test {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    ∃ r : ℝ, x i = r :=
  real_of_abs_lt (x i) h

/-- Under the precondition every entry of every input is a real number. -/
theorem real_of_pre (a0 : FVec Ideal S10000x10000 .f32) (a1 : FVec Ideal S10000x128 .f32) (a2 : FVec Ideal S128x128 .f32)
    (a3 : FVec Ideal S128 .f32) (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_test a0 _ i (Host.reduce_andi_all _ _ _ _ _ e0 i),
    fun i => real_of_test a1 _ i (Host.reduce_andi_all _ _ _ _ _ e1 i),
    fun i => real_of_test a2 _ i (Host.reduce_andi_all _ _ _ _ _ e2 i),
    fun i => real_of_test a3 _ i (Host.reduce_andi_all _ _ _ _ _ e3 i)⟩

end Cert.Pre_finite_inputs.Finite

end
-- ==== Proof.RefValue.lean ====
/-
  The reference program computes the layer. Read one operation at a time, its result at row `p`, column `q` is
  `max (∑ j, A (p, j) · (∑ k, x (j, k) · W (k, q)) + b q, 0)`: the feature matrix is first multiplied by the weights,
  then the adjacency matrix is applied. With real entries that is the layer as specified, grouped the other way.
-/
import proofs.«107200_g20057497272921_cont_8to1_568_23_alg».proof.Proof.Gen.ReferenceIdeal.Read
import proofs.«107200_g20057497272921_cont_8to1_568_23_alg».proof.Proof.Spec

noncomputable section

namespace Cert.ReferenceIdeal.RefValue

open Cert.ReferenceIdeal Cert.ReferenceIdeal.Read Idealize.ShloMosaic Idealize.ShloMosaic.ValueIdx Cert.GraphLayer

/-! The operand indices of the two products and of the bias's two broadcasts, at output index `(p, q)`. -/

/-- The outer product reads the adjacency matrix at `(p, j)`. -/
theorem adj_idx (p : Fin 10000) (q : Fin 128) (j : Fin 10000) : lidx_main_v1 (ix2 p q) j = ix2 p j :=
  funext fun a => Fin.ext (by match a with | ⟨0, _⟩ => rfl | ⟨1, _⟩ => rfl)

/-- The inner product, read at the outer product's right operand index `(j, q)`, reads the features at `(j, k)`. -/
theorem feat_idx (p : Fin 10000) (q : Fin 128) (j : Fin 10000) (k : Fin 128) :
    lidx_main_v0 (ridx_main_v1 (ix2 p q) j) k = ix2 j k :=
  funext fun a => Fin.ext (by match a with | ⟨0, _⟩ => rfl | ⟨1, _⟩ => rfl)

/-- … and the weights at `(k, q)`. -/
theorem weight_idx (p : Fin 10000) (q : Fin 128) (j : Fin 10000) (k : Fin 128) :
    ridx_main_v0 (ridx_main_v1 (ix2 p q) j) k = ix2 k q :=
  funext fun a => Fin.ext (by match a with | ⟨0, _⟩ => rfl | ⟨1, _⟩ => rfl)

/-- The bias, broadcast to a row and then down the rows, is read at `q`. -/
theorem bias_idx (p : Fin 10000) (q : Fin 128) : idx_main_v2 (idx_main_v3 (ix2 p q)) = ix1 q :=
  funext fun a => Fin.ext (by match a with | ⟨0, _⟩ => rfl)

/-- The reference's result is the layer of its four arguments, when their entries are real numbers. -/
theorem result_eq (A : (⟨S10000x10000, .f32⟩ : BufTy).Contents (Elt Ideal)) (X : (⟨S10000x128, .f32⟩ : BufTy).Contents (Elt Ideal))
    (W : (⟨S128x128, .f32⟩ : BufTy).Contents (Elt Ideal)) (b : (⟨S128, .f32⟩ : BufTy).Contents (Elt Ideal))
    (hA : ∀ i, ∃ r : ℝ, A i = r) (hX : ∀ i, ∃ r : ℝ, X i = r) (hW : ∀ i, ∃ r : ℝ, W i = r) :
    val_main_v6 (F := Ideal) A X W b = layer A X W b := by
  funext i
  obtain ⟨p, q, rfl⟩ : ∃ (p : Fin 10000) (q : Fin 128), i = ix2 p q := ⟨i 0, i 1, eq_ix2 i⟩
  rw [layer_ix2, layerAt_eq_right A X W b hA hX hW, val_main_v6_apply, val_main_v4_apply, val_main_v1_apply,
    val_main_v3_apply, val_main_v2_apply, val_main_v5_apply, val_main_cst_apply]
  simp only [val_main_v0_apply, adj_idx, feat_idx, weight_idx, bias_idx]
  rfl

end Cert.ReferenceIdeal.RefValue

end
-- ==== Proof.Body.lean ====
/-
  What the kernel body stores, read at an index. At one grid point the body holds a tile of 400 rows of the adjacency
  matrix, the whole feature matrix, the whole weight matrix and the bias as one row. It multiplies the tile by the
  features (the change of float format on the way in is the identity on the extended reals), multiplies the 400 × 128
  product by the weights, adds the bias row to every row and rectifies. Both products accumulate into a zero splat, so
  each is a plain sum over its contracted axis: at row `r` of the tile and column `q` the stored value is

      max ( ∑ k, (∑ j, tile (r, j) · x (j, k)) · W (k, q)  +  bias (0, q) ,  0 ).
-/
import proofs.«107200_g20057497272921_cont_8to1_568_23_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The first product: a tile of the adjacency matrix times the features -/

theorem tile_lhs_row (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl

theorem tile_rhs_col (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The tile times the features into a zero accumulator, at `(r, k)`: the sum over the 10000 columns of the tile. -/
theorem tile_features_apply (l : FVec Ideal S400x10000 .bf16) (x : FVec Ideal S10000x128 .bf16) (r : Fin 400) (k : Fin 128) :
    matmul dot_S400x10000_S10000x128_S400x128_1_0_0_1_n_n none l x (constant S400x128 .f32 0x00000000#32) (ix2 r k)
      = ∑ j : Fin 10000, l (ix2 r j) * x (ix2 j k) := by
  simp only [matmul]
  rw [Ideal.matmul_constant_zero_apply, ← Equiv.sum_comp (contrEquiv1 dot_S400x10000_S10000x128_S400x128_1_0_0_1_n_n 10000 rfl rfl).symm]
  refine Finset.sum_congr rfl fun j _ => ?_
  have hj := contrEquiv1_symm_val dot_S400x10000_S10000x128_S400x128_1_0_0_1_n_n 10000 rfl rfl j
  have el : dot_S400x10000_S10000x128_S400x128_1_0_0_1_n_n.lhsIdx (ix2 r k) ((contrEquiv1 dot_S400x10000_S10000x128_S400x128_1_0_0_1_n_n 10000 rfl rfl).symm j) = ix2 r j := funext fun a => Fin.ext (by
    match a with
    | ⟨0, _⟩ => exact tile_lhs_row _ _
    | ⟨1, _⟩ => exact (dot_S400x10000_S10000x128_S400x128_1_0_0_1_n_n.lhsIdx_val_of_single rfl _ _).trans hj)
  have er : dot_S400x10000_S10000x128_S400x128_1_0_0_1_n_n.rhsIdx (ix2 r k) ((contrEquiv1 dot_S400x10000_S10000x128_S400x128_1_0_0_1_n_n 10000 rfl rfl).symm j) = ix2 j k := funext fun a => Fin.ext (by
    match a with
    | ⟨0, _⟩ => exact (dot_S400x10000_S10000x128_S400x128_1_0_0_1_n_n.rhsIdx_val_of_single rfl _ _).trans hj
    | ⟨1, _⟩ => exact tile_rhs_col _ _)
  rw [el, er]

/-! ## The second product: that 400 × 128 result times the weights -/

theorem proj_lhs_row (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl

theorem proj_rhs_col (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A 400 × 128 block times the weights into a zero accumulator, at `(r, q)`: the sum over the 128 hidden units. -/
theorem weights_apply (g : FVec Ideal S400x128 .f32) (w : FVec Ideal S128x128 .f32) (r : Fin 400) (q : Fin 128) :
    matmul dot_S400x128_S128x128_S400x128_1_0_0_1_n_n none g w (constant S400x128 .f32 0x00000000#32) (ix2 r q)
      = ∑ k : Fin 128, g (ix2 r k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r q) ((contrEquiv1 dot_S400x128_S128x128_S400x128_1_0_0_1_n_n 128 rfl rfl).symm k) = ix2 r k := funext fun a => Fin.ext (by
    match a with
    | ⟨0, _⟩ => exact proj_lhs_row _ _
    | ⟨1, _⟩ => exact (dot_S400x128_S128x128_S400x128_1_0_0_1_n_n.lhsIdx_val_of_single rfl _ _).trans hk)
  have er : dot_S400x128_S128x128_S400x128_1_0_0_1_n_n.rhsIdx (ix2 r q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl _ _).trans hk
    | ⟨1, _⟩ => exact proj_rhs_col _ _)
  rw [el, er]

/-! ## The bias row under every row -/

/-- The bias, held as one row, cast to its own shape and broadcast down 400 rows, read at `(r, q)` is the row at `q`. -/
theorem bias_apply (v : FVec Ideal S1x128 .f32) (r : Fin 400) (q : Fin 128) :
    broadcastTo S400x128 (shapeCast S1x128 v shapeCasts_S1x128_S1x128) broadcasts_S1x128_S400x128 (ix2 r q) = v (ix2 (0 : Fin 1) q) := by
  rw [shapeCast_self]
  exact broadcastTo_1b_ab_apply v broadcasts_S1x128_S400x128 r q

/-! ## The stored value -/

/-- The body's one store, at row `r` of the tile and column `q`. -/
theorem stored_apply (tile : Vec Ideal S400x10000 .f32) (x : Vec Ideal S10000x128 .f32) (w : Vec Ideal S128x128 .f32)
    (bias : Vec Ideal S1x128 .f32) (r : Fin 400) (q : Fin 128) :
    k0_pay1 tile x w bias (ix2 r q)
      = max ((∑ k : Fin 128, (∑ j : Fin 10000, tile (ix2 r j) * x (ix2 j k)) * w (ix2 k q)) + bias (ix2 (0 : Fin 1) q))
          (Ideal.ofBits .f32 0x00000000#32) := by
  unfold k0_pay1
  refine congrArg₂ max (congrArg₂ (· + ·) ?_ (bias_apply bias r q)) rfl
  refine (weights_apply _ w r q).trans (Finset.sum_congr rfl fun k _ => congrArg (· * w (ix2 k q)) ?_)
  exact tile_features_apply _ _ r k

end Cert.KernelIdeal.Body

end
-- ==== Proof.Whole.lean ====
/-
  The kernel's result array as one function of its arguments. The grid has 25 points; point `t` holds rows
  `400 t … 400 t + 399` of the adjacency matrix, the whole feature matrix, the whole weight matrix and the bias (which the
  host has reshaped from 128 entries to one row of 128), and writes back rows `400 t … 400 t + 399` of the result. So what
  point `t` writes is block `t` of the layer of the four arguments: row `r` of the tile is row `400 t + r` of the
  matrix, and every other operand is read whole. The 25 blocks cover the 10000 rows (row `p` lies in block `p / 400`),
  hence the array after the run is the layer.
-/
import proofs.«107200_g20057497272921_cont_8to1_568_23_alg».proof.Proof.Gen.KernelIdeal.Value
import proofs.«107200_g20057497272921_cont_8to1_568_23_alg».proof.Proof.Body
import proofs.«107200_g20057497272921_cont_8to1_568_23_alg».proof.Proof.Spec
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.GraphLayer

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the four argument arrays as launched, on core `c`. -/
abbrev out (c : Dev nD) : S10000x128.Idx → EReal :=
  layer (m ((c : Thread nD τ).loc main_arg0)) (m ((c : Thread nD τ).loc main_arg1)) (m ((c : Thread nD τ).loc main_arg2))
    (m ((c : Thread nD τ).loc main_arg3))

/-- The block index maps over the grid: the adjacency tile and the result tile move down with the point, column block 0;
    the features, the weights and the bias row stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias row the region finds: the host's reshape of the 128-entry bias. -/
theorem bias_row (c : Dev nD) :
    (V m c main_v0 : S1x128.Idx → EReal) = shapeCast S1x128 (m ((c : Thread nD τ).loc main_arg3)) shapeCasts_S128_S1x128 := by
  dsimp only [Gen.V, Gen.hostOps0]
  after_results
  rfl

/-- The 128-entry bias reshaped to one row, read at an index of the row whose column is `q`, is the bias at `q`. -/
theorem bias_read (v : S128.Idx → EReal) (h : S128.ShapeCasts S1x128) (z : S1x128.Idx) (q : Fin 128) (hq : (z 1).val = q.val) :
    shapeCast S1x128 v h z = v (ix1 q) := by
  refine shapeCast_apply v h z (ix1 q) ?_
  rw [Shape.rowMajor_val_two, Shape.rowMajor_val_one]
  have hz0 : (z 0).val < 1 := (z 0).isLt
  show q.val = (z 0).val * 128 + (z 1).val
  omega

/-- The body's stored value at an index `y` of the tile is the layer at an index `i` of the array, as soon as the tile's
    row `y 0` is the matrix's row `i 0`, the columns agree, and the other blocks are the whole operands. -/
theorem stored_eq_layer (A : S10000x10000.Idx → EReal) (X : S10000x128.Idx → EReal) (W : S128x128.Idx → EReal) (b : S128.Idx → EReal)
    (tile : Vec Ideal S400x10000 .f32) (x : Vec Ideal S10000x128 .f32) (w : Vec Ideal S128x128 .f32) (bias : Vec Ideal S1x128 .f32)
    (y : S400x128.Idx) (i : S10000x128.Idx)
    (h0 : ∀ j : Fin 10000, tile (ix2 (y 0) j) = A (ix2 (i 0) j))
    (h1 : ∀ (j : Fin 10000) (k : Fin 128), x (ix2 j k) = X (ix2 j k))
    (h2 : ∀ k : Fin 128, w (ix2 k (y 1)) = W (ix2 k (i 1)))
    (h3 : bias (ix2 (0 : Fin 1) (y 1)) = b (ix1 (i 1))) :
    k0_pay1 tile x w bias y = layer A X W b i := by
  refine (congrArg (k0_pay1 tile x w bias) (eq_ix2 y)).trans ((Body.stored_apply tile x w bias (y 0) (y 1)).trans ?_)
  unfold layer layerAt
  simp only [h0, h1, h2, h3]

/-- WHAT POINT `t` WRITES BACK is block `t` of the layer of the arguments. -/
theorem flushed_eq (c : Dev nD) (t : Fin cfg0.N) :
    (dats m 0 c).flushed 4 t = ((cfg0.win 4).blk t).view.read (Elt Ideal) (out m c) := by
  rw [Value.flushed4]
  unfold out0_4
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  obtain ⟨e00, e01, e10, e11, e20, e21, e30, e31, e40, e41⟩ := block_indices t
  funext y
  refine stored_eq_layer (m ((c : Thread nD τ).loc main_arg0)) (m ((c : Thread nD τ).loc main_arg1)) (m ((c : Thread nD τ).loc main_arg2))
    (m ((c : Thread nD τ).loc main_arg3)) (iblk m c 0 t) (iblk m c 1 t) (iblk m c 2 t) (iblk m c 3 t) y
    (((cfg0.win 4).blk t).view.emb y) ?_ ?_ ?_ ?_
  · intro j
    show V m c main_arg0 (((cfg0.win 0).blk t).view.emb (ix2 (y 0) j)) = _
    rw [V_main_arg0]
    refine congrArg _ (funext fun a => Fin.ext ?_)
    match a with
    | ⟨0, _⟩ => show win0_0.index t (0 : Fin 2) * 400 + 1 * (y 0).val = win0_4.index t (0 : Fin 2) * 400 + 1 * (y 0).val; omega
    | ⟨1, _⟩ => show win0_0.index t (1 : Fin 2) * 10000 + 1 * j.val = j.val; omega
  · intro j k
    show V m c main_arg1 (((cfg0.win 1).blk t).view.emb (ix2 j k)) = _
    rw [V_main_arg1]
    refine congrArg _ (funext fun a => Fin.ext ?_)
    match a with
    | ⟨0, _⟩ => show win0_1.index t (0 : Fin 2) * 10000 + 1 * j.val = j.val; omega
    | ⟨1, _⟩ => show win0_1.index t (1 : Fin 2) * 128 + 1 * k.val = k.val; omega
  · intro k
    show V m c main_arg2 (((cfg0.win 2).blk t).view.emb (ix2 k (y 1))) = _
    rw [V_main_arg2]
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_4.index t (1 : Fin 2) * 128 + 1 * (y 1).val; omega
  · show V m c main_v0 (((cfg0.win 3).blk t).view.emb (ix2 (0 : Fin 1) (y 1))) = _
    rw [bias_row]
    refine bias_read _ _ _ (((cfg0.win 4).blk t).view.emb y 1) ?_
    show win0_3.index t (1 : Fin 2) * 128 + 1 * (y 1).val = win0_4.index t (1 : Fin 2) * 128 + 1 * (y 1).val
    omega

/-- An index of the array is in point `t`'s block iff each coordinate is in the block's range on its axis. -/
theorem mem_block (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every row of the array lies in some point's block: row `p` in block `p / 400`. -/
theorem covered (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hlt : (i 0).val / 400 < cfg0.N := by
    show (i 0).val / 400 < grid0.N
    rw [N_0]; omega
  obtain ⟨t, ht⟩ : ∃ t : Fin cfg0.N, t.val = (i 0).val / 400 := ⟨⟨_, hlt⟩, rfl⟩
  obtain ⟨-, -, -, -, -, -, -, -, e40, e41⟩ := block_indices t
  refine ⟨t, flush0_4 t, ?_⟩
  rw [mem_block]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE ARRAY after the run is the layer of the arguments. -/
theorem final (c : Dev nD) : (dats m 0 c).arrAt 4 cfg0.N = out m c :=
  (dats m 0 c).arrAt_eq_of_cover 4 (out m c) (fun t _ => flushed_eq m c t) covered

/-- The kernel's run: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  One propagation layer of a graph network, `out = relu (A · (x · W) + b)` with `A` 10000 × 10000, `x` 10000 × 128,
  `W` 128 × 128 and `b` of length 128, computed two ways.

  The kernel walks down `A` in 25 tiles of 400 rows. For each tile it forms `(tile · x) · W`, adds the bias to every
  row, rectifies, and writes the 400 rows of the result. The reference forms `x · W` once, then `A · (x · W)`, adds the
  bias and rectifies. On the extended reals a change of float format is the identity and a product into a zero
  accumulator is a plain sum, so at row `p` and column `q` the kernel's value is
  `max (∑ k, (∑ j, A (p, j) · x (j, k)) · W (k, q) + b q, 0)` and the reference's is
  `max (∑ j, A (p, j) · (∑ k, x (j, k) · W (k, q)) + b q, 0)`. These agree because matrix multiplication is associative —
  which needs distributivity, and that holds on the extended reals only away from the infinities: this is where the
  precondition (every input entry finite) is used.

  The modules: `Spec` states the layer as one function of the four arrays and proves the associativity law; `Finite`
  reads the precondition back as "every entry is a real number"; `RefValue` shows the reference's result is the layer;
  `Body` reads the kernel body's stored value at an index and `Whole` assembles the 25 written blocks into the layer.
  The idealized kernel is the kernel's own text read over the extended reals (no rewrite was applied), so that conjunct
  is trivial; the three termination-and-frame conjuncts come from the generated frame proofs and the generated run of the
  reference.
-/
import proofs.«107200_g20057497272921_cont_8to1_568_23_alg».proof.Defs
import proofs.«107200_g20057497272921_cont_8to1_568_23_alg».proof.Proof.Gen.Kernel
import proofs.«107200_g20057497272921_cont_8to1_568_23_alg».proof.Proof.Gen.Kernel.Skeleton
import proofs.«107200_g20057497272921_cont_8to1_568_23_alg».proof.Proof.Gen.Kernel.Launch
import proofs.«107200_g20057497272921_cont_8to1_568_23_alg».proof.Proof.Gen.Kernel.Points
import proofs.«107200_g20057497272921_cont_8to1_568_23_alg».proof.Proof.Gen.Kernel.Frame
import proofs.«107200_g20057497272921_cont_8to1_568_23_alg».proof.Proof.Gen.KernelIdeal
import proofs.«107200_g20057497272921_cont_8to1_568_23_alg».proof.Proof.Gen.KernelIdeal.Skeleton
import proofs.«107200_g20057497272921_cont_8to1_568_23_alg».proof.Proof.Gen.KernelIdeal.Launch
import proofs.«107200_g20057497272921_cont_8to1_568_23_alg».proof.Proof.Gen.KernelIdeal.Points
import proofs.«107200_g20057497272921_cont_8to1_568_23_alg».proof.Proof.Gen.KernelIdeal.Frame
import proofs.«107200_g20057497272921_cont_8to1_568_23_alg».proof.Proof.Gen.ReferenceIdeal
import proofs.«107200_g20057497272921_cont_8to1_568_23_alg».proof.Proof.Gen.Pre_finite_inputs
import proofs.«107200_g20057497272921_cont_8to1_568_23_alg».proof.Proof.Gen.KernelIdeal.Value
import proofs.«107200_g20057497272921_cont_8to1_568_23_alg».proof.Proof.Gen.ReferenceIdeal.Run
import proofs.«107200_g20057497272921_cont_8to1_568_23_alg».proof.Proof.Gen.ReferenceIdeal.Read
import proofs.«107200_g20057497272921_cont_8to1_568_23_alg».proof.Proof.Spec
import proofs.«107200_g20057497272921_cont_8to1_568_23_alg».proof.Proof.Finite
import proofs.«107200_g20057497272921_cont_8to1_568_23_alg».proof.Proof.RefValue
import proofs.«107200_g20057497272921_cont_8to1_568_23_alg».proof.Proof.Body
import proofs.«107200_g20057497272921_cont_8to1_568_23_alg».proof.Proof.Whole
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, all finite, both programs end with the layer of those arguments in
    their result arrays: the kernel by its 25 blocks, the reference by its two products, the two groupings of the double
    product equal for real entries. -/
theorem algebraic : Cert.algebraic_KernelIdeal_ReferenceIdeal := by
  intro m ρ m' ρ' hpre hagree
  refine ⟨fun c => Cert.KernelIdeal.Whole.out m c, Cert.KernelIdeal.Whole.run m ρ, ?_⟩
  refine (θ_run Cert.ReferenceIdeal.defs _ _).mono
    (fun _ h c => ⟨(h c).1.trans ((Cert.ReferenceIdeal.Read.val_main_v6_eq _ _ _ _).trans ?_), (h c).2⟩)
    (Cert.ReferenceIdeal.Value.run (F := Ideal) m' ρ')
  obtain ⟨hA, hX, hW, -⟩ := Cert.Pre_finite_inputs.Finite.real_of_pre _ _ _ _ (hpre c)
  rw [(hagree c).1, (hagree c).2.1, (hagree c).2.2.1, (hagree c).2.2.2]
  exact Cert.ReferenceIdeal.RefValue.result_eq _ _ _ _ hA hX hW

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
